-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x8192 : Shape := ⟨2, ![16384, 8192]⟩
abbrev S_ : Shape := ⟨0, ![]⟩

class Facts : Prop where
  bcast_S_S16384x8192 : S_.BroadcastsInDim S16384x8192 (![] : Fin 0 → Fin S16384x8192.rank)
  reducesTo_S16384x8192_S_d0_1 : S16384x8192.ReducesTo [0, 1] S_
  h_S_ : 0 < S_.numel

variable [Facts]

def fn {F : FTy → Type} [FloatOps F] (main_arg0 : FVec F S16384x8192 .f32) : IVec S_ 1 :=
  let main_v0 : FVec F S16384x8192 .f32 := Host.absf main_arg0
  let main_cst : FVec F S_ .f32 := constant S_ .f32 0x7F800000#32
  let main_v1 : FVec F S16384x8192 .f32 := broadcastInDim S16384x8192 ![] bcast_S_S16384x8192 main_cst
  let main_v2 : IVec S16384x8192 1 := cmpf .olt main_v0 main_v1
  let main_c : IVec S_ 1 := constantI S_ 1 1#1
  let main_v3 : IVec S_ 1 := (fun x v => Host.reduce IntOp.andi x v reducesTo_S16384x8192_S_d0_1 h_S_) main_v2 main_c
  main_v3
-- ==== Kernel.lean ====
abbrev S16384x8192 : Shape := ⟨2, ![16384, 8192]⟩
abbrev S256x8192 : Shape := ⟨2, ![256, 8192]⟩
abbrev S256 : Shape := ⟨1, ![256]⟩
abbrev S256x1 : Shape := ⟨2, ![256, 1]⟩

abbrev nBuf : Space → Nat
  | .hbm => 2
  | .vmem => 4
  | .smem => 0
  | _ => 0

abbrev bufTy : (tb : Table) → Fin (tcTables nBuf tb) → BufTy
  | .hbm, ⟨0, _⟩ => ⟨S16384x8192, .f32⟩
  | .hbm, ⟨1, _⟩ => ⟨S16384x8192, .f32⟩
  | .local _ .vmem, ⟨0, _⟩ => ⟨S256x8192, .f32⟩
  | .local _ .vmem, ⟨1, _⟩ => ⟨S256x8192, .f32⟩
  | .local _ .vmem, ⟨2, _⟩ => ⟨S256x8192, .f32⟩
  | .local _ .vmem, ⟨3, _⟩ => ⟨S256x8192, .f32⟩
  | _, _ => ⟨S16384x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S256x8192_S256x8192_0_0 : ∀ a, (![0, 0] : Fin 2 → Nat) a + S256x8192.size a ≤ S256x8192.size a
  h_S256x8192 : 0 < S256x8192.numel
  natLt_1_32 : 1 < 32
  reduces_S256x8192_S256 : S256x8192.Reduces [1] S256
  shapeCasts_S256_S256x1 : S256.ShapeCasts S256x1
  broadcasts_S256x1_S256x8192 : S256x1.Broadcasts S256x8192
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x8192.size a ≤ S16384x8192.size a
  hwx0_0 : ∀ i : grid0.Coords, EltTy.bits .f32 = 32 ∨ (Rect.block (s := S16384x8192) S256x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x8192.size a ≤ S16384x8192.size a
  hwx0_1 : ∀ i : grid0.Coords, EltTy.bits .f32 = 32 ∨ (Rect.block (s := S16384x8192) S256x8192.size (cc0_transform_1 i) (hinb0_1 i)).WholeWords (EltTy.packing .f32)

variable [Facts₀]

abbrev win0_0 : Pipeline.Window sig grid0 :=
  Pipeline.Window.ofSpec (Memref.whole main_arg0) S256x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256x8192.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S16384x8192 : Shape := ⟨2, ![16384, 8192]⟩
abbrev S_ : Shape := ⟨0, ![]⟩
abbrev S16384 : Shape := ⟨1, ![16384]⟩
abbrev S16384x1 : Shape := ⟨2, ![16384, 1]⟩

abbrev nBuf : Space → Nat
  | .hbm => 34
  | .vmem => 0
  | .smem => 0
  | _ => 0

abbrev bufTy : (tb : Table) → Fin (tcTables nBuf tb) → BufTy
  | .hbm, ⟨0, _⟩ => ⟨S16384x8192, .f32⟩
  | .hbm, ⟨1, _⟩ => ⟨S16384x8192, .f32⟩
  | .hbm, ⟨2, _⟩ => ⟨S_, .f32⟩
  | .hbm, ⟨3, _⟩ => ⟨S16384x8192, .f32⟩
  | .hbm, ⟨4, _⟩ => ⟨S16384x8192, .i1⟩
  | .hbm, ⟨5, _⟩ => ⟨S16384x8192, .i32⟩
  | .hbm, ⟨6, _⟩ => ⟨S_, .i32⟩
  | .hbm, ⟨7, _⟩ => ⟨S16384, .i32⟩
  | .hbm, ⟨8, _⟩ => ⟨S16384, .f32⟩
  | .hbm, ⟨9, _⟩ => ⟨S16384x8192, .f32⟩
  | .hbm, ⟨10, _⟩ => ⟨S16384x8192, .f32⟩
  | .hbm, ⟨11, _⟩ => ⟨S_, .f32⟩
  | .hbm, ⟨12, _⟩ => ⟨S16384, .f32⟩
  | .hbm, ⟨13, _⟩ => ⟨S16384, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S16384, .f32⟩
  | .hbm, ⟨18, _⟩ => ⟨S16384, .f32⟩
  | .hbm, ⟨19, _⟩ => ⟨S_, .f32⟩
  | .hbm, ⟨20, _⟩ => ⟨S16384, .f32⟩
  | .hbm, ⟨21, _⟩ => ⟨S16384, .f32⟩
  | .hbm, ⟨22, _⟩ => ⟨S_, .f32⟩
  | .hbm, ⟨23, _⟩ => ⟨S16384x8192, .f32⟩
  | .hbm, ⟨24, _⟩ => ⟨S16384x8192, .i1⟩
  | .hbm, ⟨25, _⟩ => ⟨S_, .f32⟩
  | .hbm, ⟨26, _⟩ => ⟨S_, .f32⟩
  | .hbm, ⟨27, _⟩ => ⟨S16384x8192, .f32⟩
  | .hbm, ⟨28, _⟩ => ⟨S16384x8192, .f32⟩
  | .hbm, ⟨29, _⟩ => ⟨S16384x8192, .f32⟩
  | .hbm, ⟨30, _⟩ => ⟨S16384x8192, .f32⟩
  | .hbm, ⟨31, _⟩ => ⟨S16384x1, .f32⟩
  | .hbm, ⟨32, _⟩ => ⟨S16384x8192, .f32⟩
  | .hbm, ⟨33, _⟩ => ⟨S16384x8192, .f32⟩
  | _, _ => ⟨S16384x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_cst_2 : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_v10 : Ref sig .tc := ⟨.hbm, 21, rfl⟩
abbrev main_cst_3 : Ref sig .tc := ⟨.hbm, 22, rfl⟩
abbrev main_v11 : Ref sig .tc := ⟨.hbm, 23, rfl⟩
abbrev main_v12 : Ref sig .tc := ⟨.hbm, 24, rfl⟩
abbrev main_cst_4 : Ref sig .tc := ⟨.hbm, 25, rfl⟩
abbrev main_cst_5 : Ref sig .tc := ⟨.hbm, 26, rfl⟩
abbrev main_call1_v0 : Ref sig .tc := ⟨.hbm, 27, rfl⟩
abbrev main_call1_v1 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩

abbrev nD : Nat := 1
abbrev τ : Topo := Topo.v7x

variable {F : FTy → Type} [FloatOps F]

class Facts₀ : Prop where
  bcast_S_S16384x8192 : S_.BroadcastsInDim S16384x8192 (![] : Fin 0 → Fin S16384x8192.rank)
  natLt_1_32 : 1 < 32
  reducesTo_S16384x8192_S16384_d1 : S16384x8192.ReducesTo [1] S16384
  h_S_ : 0 < S_.numel
  bcast_S_S16384 : S_.BroadcastsInDim S16384 (![] : Fin 0 → Fin S16384.rank)
  bcast_S16384_S16384x1_0 : S16384.BroadcastsInDim S16384x1 (![0] : Fin 1 → Fin S16384x1.rank)
  bcast_S16384x1_S16384x8192_0_1 : S16384x1.BroadcastsInDim S16384x8192 (![0, 1] : Fin 2 → Fin S16384x8192.rank)

variable [Facts₀]

class Facts : Prop extends Facts₀ where

variable [Facts]
-- ==== Proof.Spec.lean ====
/-
  The specification: the sign of each entry times its row's clamped mean absolute value over the nonzero entries.

  For a row ρ of 8192 extended reals write nz v for the indicator of v ≠ 0 — the bit |v| > 0, widened to a 32-bit
  word and read back as a real, so 0 or 1 —; the row's scale is
      α(ρ) = min 100 (max 0 ((∑ₖ |ρₖ| · nz ρₖ) / (∑ₖ nz ρₖ)))
  with the ideal quotient, and the result at (r, q) of an array x of 16384 such rows is
      G x (r, q) = (if x(r,q) > 0 then 1 else −1) · α(row r of x).
  The entry at (r, q) depends on the array through row r alone; that is what lets a kernel that holds 256 whole rows
  at a time compute it block by block. The constants stay the 32-bit patterns both programs spell them with: nothing
  here evaluates one.
-/
import Idealize.ShloMosaic.PureOps.Ideal
import Idealize.ShloMosaic.Lib.ValueIdx

noncomputable section

open scoped BigOperators

namespace Cert.AbsMean

open Idealize.ShloMosaic Idealize.ShloMosaic.ValueIdx

/-- The bit "v is not zero", taken as |v| > 0 with |v| = max v (−v). -/
def nzBit (v : EReal) : BitVec 1 := Ideal.cmp .ogt (max v (-v)) (Ideal.ofBits .f32 0x00000000#32)

/-- That bit as an extended real, 0 or 1: widened to a word, read as a signed integer. -/
def nz (v : EReal) : EReal := ((((nzBit v).setWidth 32).toInt : ℝ) : EReal)

/-- A row's scale: its mean absolute value over the nonzero entries, clamped to [0, 100]. -/
def alphaRow (ρ : Fin 8192 → EReal) : EReal :=
  min (Ideal.ofBits .f32 0x42C80000#32) (max (Ideal.ofBits .f32 0x00000000#32)
    (Ideal.div (∑ k : Fin 8192, max (ρ k) (-(ρ k)) * nz (ρ k)) (∑ k : Fin 8192, nz (ρ k))))

/-- +1 on the positive entries, −1 elsewhere. -/
def sgn (v : EReal) : EReal :=
  Scalar.select (Ideal.cmp .ogt v (Ideal.ofBits .f32 0x00000000#32)) (Ideal.ofBits .f32 0x3F800000#32)
    (Ideal.ofBits .f32 0xBF800000#32)

/-- The result array as one function of the input array. -/
def G (x : (⟨2, ![16384, 8192]⟩ : Shape).Idx → EReal) : (⟨2, ![16384, 8192]⟩ : Shape).Idx → EReal :=
  fun i => sgn (x i) * alphaRow (fun k => x (ix2 (i 0) k))

/-- At explicit coordinates. -/
theorem G_apply (x : (⟨2, ![16384, 8192]⟩ : Shape).Idx → EReal) (r : Fin 16384) (q : Fin 8192) :
    G x (ix2 r q) = sgn (x (ix2 r q)) * alphaRow (fun k => x (ix2 r k)) := rfl

end Cert.AbsMean

end
-- ==== Proof.KernelBlock.lean ====
/-
  One grid point's block. The kernel loads a block of 256 whole rows, and what it stores at (p, q) of the block is
  the sign of the entry there times the scale of row p OF THE BLOCK: the two lane reductions it makes — the count of
  nonzero entries and the sum of the absolute values over them — are, at the ideal values, plain sums over the 8192
  columns of that row, and the column vector of scales is broadcast back along the rows.
-/
import proofs.«175784_j71012989272077_1_alg».proof.Proof.KernelValueP
import proofs.«175784_j71012989272077_1_alg».proof.Proof.Spec
import Idealize.ShloMosaic.PureOps.Ideal.Laws
import Idealize.ShloMosaic.Lib.ValueIdx

noncomputable section

open scoped BigOperators

namespace Cert.KernelIdeal.BlockValue

open Cert.KernelIdeal Cert.KernelIdeal.Gen Idealize.ShloMosaic Idealize.ShloMosaic.ValueIdx Cert.AbsMean

/-- The column inserted into a row index of the block is the index (row, column). -/
theorem lift_row (h : S256x8192.Reduces [1] S256) (p : Fin 256) (k : Fin 8192) :
    h.lift (ix1 p) k = ix2 p k :=
  funext fun a => Fin.ext (by match a with | ⟨0, _⟩ => rfl | ⟨1, _⟩ => rfl)

/-- The count of a block row's nonzero entries: the lane sum of the indicator is the sum over the columns. -/
theorem count_row (P0 : FVec Ideal S256x8192 .f32) (h : S256x8192.Reduces [1] S256) (hφ : FKind.Formats .f32)
    (hacc : (0x00000000#32 : BitVec 32) = FKind.add.neutral .f32 hφ) (p : Fin 256) :
    multiReduction .add [1] S256
        (sitofp .f32 (extui 32 (cmpf .ogt (absf P0) (broadcast S256x8192 (Scalar.ofBits .f32 0x00000000#32))) natLt_1_32) : FVec Ideal S256x8192 .f32)
        0x00000000#32 h hφ hacc (ix1 p)
      = ∑ k : Fin 8192, nz (P0 (ix2 p k)) :=
  (Ideal.multiReduction_add_single _ _ h hφ hacc (ix1 p)).trans
    (Finset.sum_congr rfl fun k _ => by rw [lift_row h p k]; rfl)

/-- The sum of a block row's absolute values over its nonzero entries, likewise. -/
theorem abssum_row (P0 : FVec Ideal S256x8192 .f32) (h : S256x8192.Reduces [1] S256) (hφ : FKind.Formats .f32)
    (hacc : (0x00000000#32 : BitVec 32) = FKind.add.neutral .f32 hφ) (p : Fin 256) :
    multiReduction .add [1] S256
        (mulf (absf P0) (sitofp .f32 (extui 32 (cmpf .ogt (absf P0) (broadcast S256x8192 (Scalar.ofBits .f32 0x00000000#32))) natLt_1_32)) : FVec Ideal S256x8192 .f32)
        0x00000000#32 h hφ hacc (ix1 p)
      = ∑ k : Fin 8192, max (P0 (ix2 p k)) (-(P0 (ix2 p k))) * nz (P0 (ix2 p k)) :=
  (Ideal.multiReduction_add_single _ _ h hφ hacc (ix1 p)).trans
    (Finset.sum_congr rfl fun k _ => by rw [lift_row h p k]; rfl)

/-- WHAT A POINT LEAVES at (p, q) of its block: the sign of the loaded entry times the scale of the loaded row p. -/
theorem block_apply (P0 : FVec Ideal S256x8192 .f32) (p : Fin 256) (q : Fin 8192) :
    ValueP.E1 (F := Ideal) P0 (ix2 p q) = sgn (P0 (ix2 p q)) * alphaRow (fun k => P0 (ix2 p k)) := by
  have h0 : ValueP.ix1_0 (ix2 p q) = ix2 p q :=
    funext fun a => Fin.ext (by match a with | ⟨0, _⟩ => rfl | ⟨1, _⟩ => rfl)
  have h1 : ValueP.ix1_1 (ix2 p q) = ix1 p := funext fun a => Fin.ext (by match a with | ⟨0, _⟩ => rfl)
  have h2 : ValueP.ix1_2 (ix2 p q) = ix1 p := funext fun a => Fin.ext (by match a with | ⟨0, _⟩ => rfl)
  simp only [ValueP.E1]
  rw [h0, h1, h2]
  exact congrArg₂ (fun a b : EReal => sgn (P0 (ix2 p q)) * min (Ideal.ofBits .f32 0x42C80000#32)
      (max (Ideal.ofBits .f32 0x00000000#32) (Ideal.div a b)))
    (abssum_row P0 _ _ _ p) (count_row P0 _ _ _ p)

end Cert.KernelIdeal.BlockValue

end
-- ==== Proof.KernelArray.lean ====
/-
  From blocks to the array. Grid point t of the 64 holds rows 256·t … 256·t + 255 of the input, all 8192 columns,
  and writes the same rows of the output. Since an entry of the specification depends on the input through its own
  row alone, what point t writes is the specification restricted to its rows; the 64 blocks cover the 16384 rows
  (row r is in block r / 256), so after the run the output array is the specification of the input array.
-/
import proofs.«175784_j71012989272077_1_alg».proof.Proof.KernelBlock
import Idealize.ShloMosaic.Lib.Pipeline.Value

noncomputable section

open scoped BigOperators

namespace Cert.KernelIdeal.ArrayValue

open Cert.KernelIdeal Cert.KernelIdeal.Gen Idealize.ShloMosaic Idealize.ShloMosaic.TcCoe Idealize.SL.Sem
open Idealize.ShloMosaic.ValueIdx Cert.AbsMean
open Idealize.ShloMosaic.Pipeline (Dat)

variable (m : (ℓ : Loc nD τ sig) → Buf (Elt Ideal) ℓ) (ρ : Dev nD → PrngReg)

theorem zero_offsets : (![0, 0] : Fin 2 → Nat) = fun _ => 0 := funext fun a => by fin_cases a <;> rfl

/-- Both windows' block index at point t is (t, 0): decided over the 64 points. -/
theorem index_facts : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- A block of 256 rows that is rows 256·t … of an array X carries, at (p, q), the specification of X at
    (256·t + p, q): the row of the block is the row of the array. -/
theorem point_apply (X : (⟨2, ![16384, 8192]⟩ : Shape).Idx → EReal) (P0 : FVec Ideal S256x8192 .f32) (t : Nat) (ht : t < 64)
    (hP : ∀ (p : Fin 256) (k : Fin 8192), P0 (ix2 p k) = X (ix2 (⟨t * 256 + p.val, by omega⟩ : Fin 16384) k))
    (p : Fin 256) (q : Fin 8192) :
    ValueP.E1 (F := Ideal) P0 (ix2 p q) = G X (ix2 (⟨t * 256 + p.val, by omega⟩ : Fin 16384) q) := by
  rw [BlockValue.block_apply, G_apply, hP p q]
  exact congrArg (fun ρ' => sgn (X (ix2 (⟨t * 256 + p.val, by omega⟩ : Fin 16384) q)) * alphaRow ρ') (funext fun k => hP p k)

/-- The block point t loads, at (p, k), is the input array at (256·t + p, k). -/
theorem iblk_apply (c : Dev nD) (t : Fin cfg0.N) (ht : t.val < 64) (p : Fin 256) (k : Fin 8192) :
    iblk m c 0 t (ix2 p k) = V m c main_arg0 (ix2 (⟨t.val * 256 + p.val, by omega⟩ : Fin 16384) k) := by
  obtain ⟨e0, e1, e2, e3⟩ := index_facts t
  show V m c main_arg0 (((cfg0.win 0).blk t).view.emb (ix2 p k)) = _
  refine congrArg (V m c main_arg0) (funext fun a => Fin.ext ?_)
  match a with
  | ⟨0, _⟩ => show win0_0.index t (0 : Fin 2) * 256 + 1 * p.val = t.val * 256 + p.val; rw [e0]; omega
  | ⟨1, _⟩ => show win0_0.index t (1 : Fin 2) * 8192 + 1 * k.val = k.val; rw [e1]; omega

/-- WHAT POINT t WRITES BACK is block t of the specification of the input array. -/
theorem flushed_eq (c : Dev nD) (t : Fin cfg0.N) :
    (dats m 0 c).flushed 1 t = ((cfg0.win 1).blk t).view.read (Elt Ideal) (G (V m c main_arg0)) := by
  have ht : t.val < 64 := lt_of_lt_of_eq t.isLt (N_0 : cfg0.N = 64)
  obtain ⟨e0, e1, e2, e3⟩ := index_facts t
  have key : ∀ j : S256x8192.Idx,
      ValueP.E1 (F := Ideal) (iblk m c 0 t) j = G (V m c main_arg0) (((cfg0.win 1).blk t).view.emb j) := by
    intro j
    obtain ⟨p, q, rfl⟩ : ∃ (p : Fin 256) (q : Fin 8192), j = ix2 p q := ⟨j 0, j 1, eq_ix2 j⟩
    refine (point_apply (V m c main_arg0) (iblk m c 0 t) t.val ht (fun p k => iblk_apply m c t ht p k) p q).trans ?_
    refine congrArg (G (V m c main_arg0)) (funext fun a => Fin.ext ?_)
    match a with
    | ⟨0, _⟩ => show t.val * 256 + p.val = win0_1.index t (0 : Fin 2) * 256 + 1 * p.val; rw [e2]; omega
    | ⟨1, _⟩ => show q.val = win0_1.index t (1 : Fin 2) * 8192 + 1 * q.val; rw [e3]; omega
  rw [ValueP.flushed1]
  unfold out0_1
  simp only [View.ld_unit_zero (S := S256x8192) zero_offsets]
  funext j
  exact (ValueP.canon1_eq (F := Ideal) (iblk m c 0 t) j).trans (key j)

/-- An index of the output array is in point t's block iff each coordinate is in the block's range on its axis. -/
theorem mem_blk (t : Fin cfg0.N) (i : S16384x8192.Idx) :
    i ∈ ((cfg0.win 1).blk t).view.set ↔ ∀ a : Fin 2, win0_1.index t a * S256x8192.size a ≤ (i a).val
      ∧ (i a).val < win0_1.index t a * S256x8192.size a + S256x8192.size a := by
  show i ∈ ((View.whole main_v0).slice (win0_1.rect t)).set ↔ _
  rw [View.set_slice_whole, Rect.mem_set_unit]
  exact Iff.rfl

/-- Every index of the output array is in the block of the point its row falls in. -/
theorem cover (i : S16384x8192.Idx) :
    ∃ t : Fin cfg0.N, (cfg0.win 1).flush t = true ∧ i ∈ ((cfg0.win 1).blk t).view.set := by
  have hi0 : (i 0).val < 16384 := (i 0).isLt
  have hi1 : (i 1).val < 8192 := (i 1).isLt
  obtain ⟨t, ht⟩ : ∃ t : Fin cfg0.N, t.val = (i 0).val / 256 :=
    ⟨⟨(i 0).val / 256, by show _ < grid0.N; rw [N_0]; omega⟩, rfl⟩
  obtain ⟨e0, e1, e2, e3⟩ := index_facts t
  refine ⟨t, flush0_1 t, ?_⟩
  rw [mem_blk]
  intro a
  match a with
  | ⟨0, _⟩ =>
    show win0_1.index t (0 : Fin 2) * 256 ≤ (i 0).val ∧ (i 0).val < win0_1.index t (0 : Fin 2) * 256 + 256
    rw [e2, ht]; omega
  | ⟨1, _⟩ =>
    show win0_1.index t (1 : Fin 2) * 8192 ≤ (i 1).val ∧ (i 1).val < win0_1.index t (1 : Fin 2) * 8192 + 8192
    rw [e3]; omega

/-- THE OUTPUT ARRAY after the run is the specification of the input array. -/
theorem final (c : Dev nD) : (dats m 0 c).arrAt 1 cfg0.N = G (V m c main_arg0) :=
  (dats m 0 c).arrAt_eq_of_cover 1 _ (fun t _ => flushed_eq m c t) cover

/-- The kernel's run, read: the result is the specification of the argument, the argument unchanged. -/
theorem run : θ_run defs (onTc (τ := τ) (main (F := Ideal))) ⟨m, fun _ => 0, ρ⟩ fun r => ∀ c : Dev nD,
      r.2.mem ((c : Thread nD τ).loc main_v0) = G (m ((c : Thread nD τ).loc main_arg0))
      ∧ r.2.mem ((c : Thread nD τ).loc main_arg0) = m ((c : Thread nD τ).loc main_arg0) :=
  (θ_run defs _ _).mono (fun r h c => ⟨(h c).1.trans (final m c), (h c).2⟩) (ValueP.run_blocks m ρ)

end Cert.KernelIdeal.ArrayValue

end
-- ==== Proof.LibBitCount.lean ====
/-
  Counting with 32-bit words. A sum of words each of which is 0 or 1, taken in the wrapping arithmetic of `BitVec 32`
  over fewer than 2^31 terms, never wraps: read as a signed integer it is the number of ones. So the count of the
  entries of a row that satisfy a condition comes out the same whether the condition's bits are first widened to
  words and added as integers (and the total then converted to a real), or converted to reals one by one and added
  as reals. Stated for a `Finset.fold` of the word addition (what a one-axis integer reduction is), with the
  conversion landing in the extended reals.
-/
import Mathlib.Data.EReal.Basic
import Mathlib.Algebra.BigOperators.Group.Finset.Basic
import Mathlib.Algebra.Order.BigOperators.Group.Finset
import Idealize.ShloMosaic.PureOps.Reduce

open scoped BigOperators

namespace Idealize.ShloMosaic.BitCount

/-- The coercion of the reals into the extended reals commutes with finite sums. -/
theorem coe_sum {ι : Type*} (s : Finset ι) (f : ι → ℝ) :
    ((∑ k ∈ s, f k : ℝ) : EReal) = ∑ k ∈ s, ((f k : ℝ) : EReal) := by
  classical
  refine Finset.induction_on s (by simp) ?_
  intro a s ha ih
  rw [Finset.sum_insert ha, Finset.sum_insert ha, EReal.coe_add, ih]

/-- A one-bit word widened to 32 bits is the word 0 or the word 1. -/
theorem setWidth_bit (b : BitVec 1) : b.setWidth 32 = 0#32 ∨ b.setWidth 32 = 1#32 := by
  rcases BitVec.eq_zero_or_eq_one b with h | h <;> subst h <;> decide

/-- Read as a signed integer, a one-bit word widened to 32 bits is the bit's own (unsigned) value. -/
theorem toInt_setWidth_bit (b : BitVec 1) : (b.setWidth 32).toInt = (b.toNat : ℤ) := by
  rcases BitVec.eq_zero_or_eq_one b with h | h <;> subst h <;> decide

/-- The wrapping sum of words that are each 0 or 1, over fewer than 2^32 of them, does not wrap. -/
theorem toNat_fold_addi {ι : Type*} [DecidableEq ι] (s : Finset ι) (g : ι → BitVec 32)
    (hg : ∀ k, g k = 0#32 ∨ g k = 1#32) (hs : s.card < 2 ^ 32) :
    (s.fold IntOp.addi 0#32 g).toNat = ∑ k ∈ s, (g k).toNat := by
  have hle : ∀ k, (g k).toNat ≤ 1 := fun k => by
    rcases hg k with h | h <;> rw [h] <;> decide
  induction s using Finset.induction_on with
  | empty => simp
  | insert a s ha ih =>
    have hcard : s.card < 2 ^ 32 := by
      have := Finset.card_insert_of_notMem ha; omega
    have hsum : ∑ k ∈ s, (g k).toNat ≤ s.card := by
      have := Finset.sum_le_card_nsmul s (fun k => (g k).toNat) 1 (fun k _ => hle k)
      simpa using this
    rw [Finset.fold_insert ha, Finset.sum_insert ha]
    show (g a + s.fold IntOp.addi 0#32 g).toNat = _
    rw [BitVec.toNat_add, ih hcard]
    have := hle a
    have h2 : s.card + 1 < 2 ^ 32 := by
      have := Finset.card_insert_of_notMem ha; omega
    exact Nat.mod_eq_of_lt (by omega)

/-- THE COUNT: over fewer than 2^31 words that are each 0 or 1, the wrapping sum read as a signed integer and
    converted to a real is the sum of the words' own signed values converted one by one. -/
theorem cast_toInt_fold_addi {ι : Type*} [DecidableEq ι] (s : Finset ι) (g : ι → BitVec 32)
    (hg : ∀ k, g k = 0#32 ∨ g k = 1#32) (hs : s.card < 2 ^ 31) :
    (((s.fold IntOp.addi 0#32 g).toInt : ℝ) : EReal) = ∑ k ∈ s, (((g k).toInt : ℝ) : EReal) := by
  have hle : ∀ k, (g k).toNat ≤ 1 := fun k => by
    rcases hg k with h | h <;> rw [h] <;> decide
  have hint : ∀ k, (g k).toInt = ((g k).toNat : ℤ) := fun k => by
    rcases hg k with h | h <;> rw [h] <;> decide
  have hnat := toNat_fold_addi s g hg (by omega)
  have hsum : ∑ k ∈ s, (g k).toNat ≤ s.card := by
    have := Finset.sum_le_card_nsmul s (fun k => (g k).toNat) 1 (fun k _ => hle k)
    simpa using this
  have htoInt : (s.fold IntOp.addi 0#32 g).toInt = ((∑ k ∈ s, (g k).toNat : ℕ) : ℤ) := by
    rw [BitVec.toInt_eq_toNat_cond, hnat, if_pos (by omega)]
  rw [htoInt, ← coe_sum]
  congr 1
  push_cast
  exact Finset.sum_congr rfl fun k _ => by rw [hint k]; push_cast; rfl

end Idealize.ShloMosaic.BitCount
-- ==== Proof.RefIsSpec.lean ====
/-
  The reference computes the specification. Read one operation at a time, its result at (r, q) is the sign of the
  entry times min 100 (max 0 (S / C)), where S is the host's float sum over row r of |x| times the mask converted
  to a float, and C is the host's INTEGER sum over row r of the mask widened to 32-bit words, converted to a float
  afterwards. S is the specification's sum term by term (a one-bit mask converts to the same real unsigned, or
  widened and signed). C is the specification's count because 8192 words that are each 0 or 1 add up without
  wrapping, so the integer total converts to the real total of the indicators.
-/
import proofs.«175784_j71012989272077_1_alg».proof.Proof.Gen.ReferenceIdeal.Read
import proofs.«175784_j71012989272077_1_alg».proof.Proof.Spec
import proofs.«175784_j71012989272077_1_alg».proof.Proof.LibBitCount
import Idealize.ShloMosaic.PureOps.Ideal.Laws
import Idealize.ShloMosaic.Lib.ValueIdx

noncomputable section

open scoped BigOperators

namespace Cert.ReferenceIdeal.RefValue

open Cert.ReferenceIdeal Cert.ReferenceIdeal.Gen Cert.ReferenceIdeal.Read Idealize.ShloMosaic
open Idealize.ShloMosaic.ValueIdx Cert.AbsMean

/-- The indicator, from the unsigned reading of its bit. -/
theorem nz_eq_toNat (v : EReal) : nz v = (((nzBit v).toNat : ℝ) : EReal) := by
  unfold nz
  rw [BitCount.toInt_setWidth_bit]
  push_cast
  rfl

/-- The reference's mask at an index is the bit "the entry is not zero". -/
theorem mask_apply (x : (⟨S16384x8192, .f32⟩ : BufTy).Contents (Elt Ideal)) (i : S16384x8192.Idx) :
    val_main_v2 (F := Ideal) x i = nzBit (x i) := by
  rw [val_main_v2_apply, val_main_v0_apply, val_main_v1_apply, val_main_cst_apply]
  rfl

/-- The column the host's row sum visits, as an index (row, column). -/
theorem idx_row (r : Fin 16384) (k : Fin 8192) : idx_main_v8 (ix1 r) k = ix2 r k :=
  funext fun a => Fin.ext (by match a with | ⟨0, _⟩ => rfl | ⟨1, _⟩ => rfl)

/-- The float sum of row r: the absolute values over the nonzero entries. -/
theorem row_abssum (x : (⟨S16384x8192, .f32⟩ : BufTy).Contents (Elt Ideal)) (r : Fin 16384) :
    val_main_v8 (F := Ideal) x (ix1 r) = ∑ k : Fin 8192, max (x (ix2 r k)) (-(x (ix2 r k))) * nz (x (ix2 r k)) := by
  rw [val_main_v8_apply, val_main_cst_0_apply]
  show Ideal.ofBits .f32 0x00000000#32 + _ = _
  rw [Ideal.ofBits_zero_f32, zero_add]
  refine Finset.sum_congr rfl fun k _ => ?_
  rw [idx_row, val_main_v7_apply, val_main_v0_apply, val_main_v6_apply, mask_apply, nz_eq_toNat]
  rfl

/-- The integer count of row r, converted: the real count of the nonzero entries. -/
theorem row_count (x : (⟨S16384x8192, .f32⟩ : BufTy).Contents (Elt Ideal)) (r : Fin 16384) :
    val_main_v5 (F := Ideal) x (ix1 r) = ∑ k : Fin 8192, nz (x (ix2 r k)) := by
  have hred : S16384x8192.Reduces [1] S16384 := by decide
  rw [val_main_v5_apply]
  show ((((val_main_v4 (F := Ideal) x (ix1 r)).toInt : ℝ)) : EReal) = _
  unfold val_main_v4
  rw [Host.reduce_eq_fold_single IntOp.addi (val_main_v3 (F := Ideal) x) (val_main_c (F := Ideal))
    reducesTo_S16384x8192_S16384_d1 hred h_S_ (ix1 r), val_main_c_apply]
  rw [BitCount.cast_toInt_fold_addi _ _ (fun k => by
      show val_main_v3 (F := Ideal) x (hred.lift (ix1 r) k) = 0#32 ∨ val_main_v3 (F := Ideal) x (hred.lift (ix1 r) k) = 1#32
      rw [val_main_v3_apply]; exact BitCount.setWidth_bit _)
    (by show (Finset.univ : Finset (Fin 8192)).card < 2 ^ 31; simp)]
  show ∑ k : Fin 8192, ((((val_main_v3 (F := Ideal) x (hred.lift (ix1 r) k)).toInt : ℝ)) : EReal) = _
  refine Finset.sum_congr rfl fun k _ => ?_
  have e : hred.lift (ix1 r) k = ix2 r k :=
    funext fun a => Fin.ext (by match a with | ⟨0, _⟩ => rfl | ⟨1, _⟩ => rfl)
  rw [e, val_main_v3_apply, mask_apply]
  rfl

/-- THE REFERENCE'S RESULT, index by index, is the specification. -/
theorem result_eq (x : (⟨S16384x8192, .f32⟩ : BufTy).Contents (Elt Ideal)) :
    val_main_v17 (F := Ideal) x = G x := by
  funext i
  obtain ⟨r, q, rfl⟩ : ∃ (r : Fin 16384) (q : Fin 8192), i = ix2 r q := ⟨i 0, i 1, eq_ix2 i⟩
  have hj : idx_main_v15 (idx_main_v16 (ix2 r q)) = ix1 r :=
    funext fun a => Fin.ext (by match a with | ⟨0, _⟩ => rfl)
  rw [val_main_v17_apply, val_main_v14_apply, val_main_v13_apply, val_main_v12_apply, val_main_v11_apply,
    val_main_cst_3_apply, val_main_call1_v0_apply, val_main_cst_4_apply, val_main_call1_v1_apply,
    val_main_cst_5_apply, val_main_v16_apply, val_main_v15_apply, hj, val_main_v10_apply,
    val_main_call0_v4_apply, val_main_call0_v3_apply, val_main_cst_2_apply, val_main_call0_v2_apply,
    val_main_call0_v1_apply, val_main_call0_v0_apply, val_main_cst_1_apply, val_main_v9_apply,
    row_abssum, row_count]
  rfl

end Cert.ReferenceIdeal.RefValue

end
-- ==== Proof.lean ====
/-
  A row-scaled sign kernel against its jnp reference, equal on the extended reals.

  Both programs send an array x of 16384 rows and 8192 columns to
      out(r, q) = (if x(r,q) > 0 then 1 else −1) · min 100 (max 0 (S_r / C_r)),
  where C_r counts the nonzero entries of row r and S_r adds their absolute values (the ideal quotient, so an all-zero
  row reads the same on both sides). The kernel walks the rows in 64 blocks of 256 whole rows and, inside a block,
  gets S and C by lane reductions of floats; the reference gets S by a float row sum and C by an INTEGER row sum of
  the mask widened to words, converted to a float afterwards.

  The proof sets both against one function G of the input array (Proof/Spec.lean):
    · the reference's last stage, read one operation at a time, is G (Proof/RefIsSpec.lean); the one step that is
      not reading is the count: 8192 words each 0 or 1 add up in 32-bit arithmetic without wrapping, so the integer
      total converts to the real sum of the indicators (Proof/LibBitCount.lean);
    · what a grid point leaves at (p, q) of its block is the sign of the entry times the scale of the block's row p
      (Proof/KernelBlock.lean, over the value leg in Proof/KernelValueP.lean); an entry of G depends on the input
      through its own row alone and the blocks hold whole rows, so point t writes block t of G, and the 64 blocks
      cover the array (Proof/KernelArray.lean).
  No step uses that the inputs are finite: the two sides are the same expression of the same sums, whatever the
  entries. The idealization rewrote nothing, so the idealized kernel is the kernel's own text and that conjunct is
  trivial; the three frames are the generated ones (the reference's is its run with the result dropped).
-/
import proofs.«175784_j71012989272077_1_alg».proof.Defs
import proofs.«175784_j71012989272077_1_alg».proof.Proof.Gen.Kernel
import proofs.«175784_j71012989272077_1_alg».proof.Proof.Gen.Kernel.Skeleton
import proofs.«175784_j71012989272077_1_alg».proof.Proof.Gen.Kernel.Launch
import proofs.«175784_j71012989272077_1_alg».proof.Proof.Gen.Kernel.Points
import proofs.«175784_j71012989272077_1_alg».proof.Proof.Gen.Kernel.Frame
import proofs.«175784_j71012989272077_1_alg».proof.Proof.Gen.KernelIdeal
import proofs.«175784_j71012989272077_1_alg».proof.Proof.Gen.KernelIdeal.Skeleton
import proofs.«175784_j71012989272077_1_alg».proof.Proof.Gen.KernelIdeal.Launch
import proofs.«175784_j71012989272077_1_alg».proof.Proof.Gen.KernelIdeal.Points
import proofs.«175784_j71012989272077_1_alg».proof.Proof.Gen.KernelIdeal.Frame
import proofs.«175784_j71012989272077_1_alg».proof.Proof.Gen.ReferenceIdeal
import proofs.«175784_j71012989272077_1_alg».proof.Proof.Gen.Pre_finite_inputs
import proofs.«175784_j71012989272077_1_alg».proof.Proof.Gen.ReferenceIdeal.Run
import proofs.«175784_j71012989272077_1_alg».proof.Proof.Gen.ReferenceIdeal.Read
import proofs.«175784_j71012989272077_1_alg».proof.Proof.KernelArray
import proofs.«175784_j71012989272077_1_alg».proof.Proof.RefIsSpec
import Idealize.ShloMosaic.Adequacy
import Idealize.ShloMosaic.Init

noncomputable section

namespace Cert.Proof

open Idealize.ShloMosaic Idealize.SL.Sem

/-- The word-level kernel runs and leaves its argument as it was. -/
theorem frame_kernel : Cert.frame_Kernel := fun m ρ _ => Cert.Kernel.Gen.frame m ρ

/-- So does the kernel read at the ideal values. -/
theorem frame_kernelIdeal : Cert.frame_KernelIdeal := fun m ρ _ => Cert.KernelIdeal.Gen.frame m ρ

/-- The reference runs and leaves its argument as it was: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the argument both programs end with the result array at G of the argument. -/
theorem algebraic : Cert.algebraic_KernelIdeal_ReferenceIdeal := by
  intro m ρ m' ρ' _ hagree
  refine ⟨_, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v17_eq, Cert.ReferenceIdeal.RefValue.result_eq, hagree c]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
